-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S11008x4096 : Shape := ⟨2, ![11008, 4096]⟩
abbrev S11008x32 : Shape := ⟨2, ![11008, 32]⟩
abbrev S11008 : Shape := ⟨1, ![11008]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008x32 : S_.BroadcastsInDim S11008x32 (![] : Fin 0 → Fin S11008x32.rank)
  reducesTo_S11008x32_S_d0_1 : S11008x32.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S8192x4096 .f32) (main_arg1 : FVec F S11008x4096 .f32) (main_arg2 : FVec F S11008x32 .f32) (main_arg3 : FVec F S11008 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x32 .f32 := Host.absf main_arg2
  let main_cst_2 : FVec F S_ .f32 := constant S_ .f32 0x7F800000#32
  let main_v10 : FVec F S11008x32 .f32 := broadcastInDim S11008x32 ![] bcast_S_S11008x32 main_cst_2
  let main_v11 : IVec S11008x32 1 := cmpf .olt main_v9 main_v10
  let main_c_3 : IVec S_ 1 := constantI S_ 1 1#1
  let main_v12 : IVec S_ 1 := (fun x v => Host.reduce IntOp.andi x v reducesTo_S11008x32_S_d0_1 h_S_) main_v11 main_c_3
  let main_v13 : IVec S_ 1 := andi main_v8 main_v12
  let main_v14 : FVec F S11008 .f32 := Host.absf main_arg3
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S8192x4096 : Shape := ⟨2, ![8192, 4096]⟩
abbrev S11008x4096 : Shape := ⟨2, ![11008, 4096]⟩
abbrev S11008x32 : Shape := ⟨2, ![11008, 32]⟩
abbrev S11008 : Shape := ⟨1, ![11008]⟩
abbrev S11008x32x128 : Shape := ⟨3, ![11008, 32, 128]⟩
abbrev S11008x32x1 : Shape := ⟨3, ![11008, 32, 1]⟩
abbrev S1x11008 : Shape := ⟨2, ![1, 11008]⟩
abbrev S8192x11008 : Shape := ⟨2, ![8192, 11008]⟩
abbrev S1024x4096 : Shape := ⟨2, ![1024, 4096]⟩
abbrev S256x4096 : Shape := ⟨2, ![256, 4096]⟩
abbrev S1x256 : Shape := ⟨2, ![1, 256]⟩
abbrev S1024x256 : Shape := ⟨2, ![1024, 256]⟩

abbrev nBuf : Space → Nat
  | .hbm => 13
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S11008x4096, .f32⟩
  | .hbm, ⟨2, _⟩ => ⟨S11008x32, .f32⟩
  | .hbm, ⟨3, _⟩ => ⟨S11008, .f32⟩
  | .hbm, ⟨4, _⟩ => ⟨S11008x32x128, .f32⟩
  | .hbm, ⟨5, _⟩ => ⟨S11008x32x1, .f32⟩
  | .hbm, ⟨6, _⟩ => ⟨S11008x32x128, .f32⟩
  | .hbm, ⟨7, _⟩ => ⟨S11008x32x128, .f32⟩
  | .hbm, ⟨8, _⟩ => ⟨S11008x4096, .f32⟩
  | .hbm, ⟨9, _⟩ => ⟨S11008x4096, .bf16⟩
  | .hbm, ⟨10, _⟩ => ⟨S8192x4096, .bf16⟩
  | .hbm, ⟨11, _⟩ => ⟨S1x11008, .f32⟩
  | .hbm, ⟨12, _⟩ => ⟨S8192x11008, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S256x4096, .bf16⟩
  | .local _ .vmem, ⟨4, _⟩ => ⟨S1x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  bitsLt_bf16_f32 : FTy.bits .bf16 < FTy.bits .f32
  shapeCasts_S11008_S1x11008 : S11008.ShapeCasts S1x11008
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x11008.size a
  hwx0_3 : ∀ i : grid0.Coords, EltTy.bits .f32 = 32 ∨ (Rect.block (s := S8192x11008) S1024x256.size (cc0_transform_3 i) (hinb0_3 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v6) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S11008x4096 : Shape := ⟨2, ![11008, 4096]⟩
abbrev S11008x32 : Shape := ⟨2, ![11008, 32]⟩
abbrev S11008 : Shape := ⟨1, ![11008]⟩
abbrev S11008x32x128 : Shape := ⟨3, ![11008, 32, 128]⟩
abbrev S11008x32x1 : Shape := ⟨3, ![11008, 32, 1]⟩
abbrev S8192x11008 : Shape := ⟨2, ![8192, 11008]⟩
abbrev S1x11008 : Shape := ⟨2, ![1, 11008]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S11008x4096, .f32⟩
  | .hbm, ⟨2, _⟩ => ⟨S11008x32, .f32⟩
  | .hbm, ⟨3, _⟩ => ⟨S11008, .f32⟩
  | .hbm, ⟨4, _⟩ => ⟨S11008x32x128, .f32⟩
  | .hbm, ⟨5, _⟩ => ⟨S11008x32x1, .f32⟩
  | .hbm, ⟨6, _⟩ => ⟨S11008x32x128, .f32⟩
  | .hbm, ⟨7, _⟩ => ⟨S11008x32x128, .f32⟩
  | .hbm, ⟨8, _⟩ => ⟨S11008x4096, .f32⟩
  | .hbm, ⟨9, _⟩ => ⟨S8192x11008, .f32⟩
  | .hbm, ⟨10, _⟩ => ⟨S1x11008, .f32⟩
  | .hbm, ⟨11, _⟩ => ⟨S8192x11008, .f32⟩
  | .hbm, ⟨12, _⟩ => ⟨S8192x11008, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  bcast_S11008_S1x11008_1 : S11008.BroadcastsInDim S1x11008 (![1] : Fin 1 → Fin S1x11008.rank)
  bcast_S1x11008_S8192x11008_0_1 : S1x11008.BroadcastsInDim S8192x11008 (![0, 1] : Fin 2 → Fin S8192x11008.rank)
  dot_S8192x4096_S11008x4096_S8192x11008_1_1_0_0_n_n_wf : DotDims.WF S8192x4096 S11008x4096 S8192x11008 [1] [1] [0] [0] [] []

variable [Facts₀]

def dot_S8192x4096_S11008x4096_S8192x11008_1_1_0_0_n_n : DotDims S8192x4096 S11008x4096 S8192x11008 where
  lhsContracting := [1]
  rhsContracting := [1]
  lhsNonContracting := [0]
  rhsNonContracting := [0]
  lhsBatch := []
  rhsBatch := []
  wf := dot_S8192x4096_S11008x4096_S8192x11008_1_1_0_0_n_n_wf

class Facts : Prop extends Facts₀ where

variable [Facts]
-- ==== Proof.DequantLinear.lean ====
/-
  The linear layer both programs compute, as one function of three arrays.

  With x an [8192, 4096] matrix of activations, W an [11008, 4096] matrix of weights (here: ternary weights already
  multiplied by their group's scale) and b an [11008] vector, the layer's output at row p and column q is

      Σ_{k < 4096} x(p, k) · W(q, k)  +  b(q):

  row p of x against row q of W — the product "x · Wᵀ" — plus the column's bias. Sums and products are those of the
  extended reals. Nothing here asks the entries to be finite: each program forms exactly these 4096 products for the
  entry and adds them, so no law beyond reading both programs at the entry is needed.
-/
import Idealize.ShloMosaic.PureOps.Ideal
import Idealize.ShloMosaic.Lib.ValueIdx

noncomputable section

namespace Cert.Linear

open Idealize.ShloMosaic Idealize.ShloMosaic.ValueIdx

/-- Entry (p, q) of the layer: row p of `x` against row q of `W`, plus `b` at q. -/
def entry (x : FVec Ideal ⟨2, ![8192, 4096]⟩ .f32) (W : FVec Ideal ⟨2, ![11008, 4096]⟩ .f32)
    (b : FVec Ideal ⟨1, ![11008]⟩ .f32) (p : Fin 8192) (q : Fin 11008) : EReal :=
  (∑ k : Fin 4096, x (ix2 p k) * W (ix2 q k)) + b (ix1 q)

/-- The layer's output as one [8192, 11008] array. -/
def layer (x : FVec Ideal ⟨2, ![8192, 4096]⟩ .f32) (W : FVec Ideal ⟨2, ![11008, 4096]⟩ .f32)
    (b : FVec Ideal ⟨1, ![11008]⟩ .f32) : FVec Ideal ⟨2, ![8192, 11008]⟩ .f32 :=
  fun i => entry x W b (i 0) (i 1)

/-- The array read at (p, q) is the entry. -/
theorem layer_apply (x : FVec Ideal ⟨2, ![8192, 4096]⟩ .f32) (W : FVec Ideal ⟨2, ![11008, 4096]⟩ .f32)
    (b : FVec Ideal ⟨1, ![11008]⟩ .f32) (p : Fin 8192) (q : Fin 11008) :
    layer x W b (ix2 p q) = entry x W b p q := rfl

end Cert.Linear

end
-- ==== Proof.ReferenceLinear.lean ====
/-
  The reference computes the linear layer.

  The reference's last stage adds two arrays: the product of the activations with the dequantized weights, contracted
  along each operand's second axis (so entry (p, q) is the sum over k of x(p, k) · W(q, k)), and the bias vector laid
  as one row [1, 11008] and repeated down the 8192 rows (so entry (p, q) is b(q)). Read at an index, stage by stage, that
  is the layer's entry. The weights W stay the reference's own stage — the ternary weights regrouped as
  [11008, 32, 128], times the scales repeated along each group, flattened back — and are never opened: the kernel's
  program forms them by the same operations.
-/
import proofs.«156727_j68178310856945_2_alg».proof.Proof.Gen.ReferenceIdeal.Read
import proofs.«156727_j68178310856945_2_alg».proof.Proof.DequantLinear

noncomputable section

namespace Cert.ReferenceIdeal.RefValue

open Cert.ReferenceIdeal Cert.ReferenceIdeal.Read Idealize.ShloMosaic Idealize.ShloMosaic.ValueIdx

/-- The reference's result stage is the layer of the activations, its own dequantized-weight stage, and the bias. -/
theorem result_eq (x0 : (⟨S8192x4096, .f32⟩ : BufTy).Contents (Elt Ideal))
    (x1 : (⟨S11008x4096, .f32⟩ : BufTy).Contents (Elt Ideal))
    (x2 : (⟨S11008x32, .f32⟩ : BufTy).Contents (Elt Ideal))
    (x3 : (⟨S11008, .f32⟩ : BufTy).Contents (Elt Ideal)) :
    val_main_v8 (F := Ideal) x0 x1 x2 x3 = Cert.Linear.layer x0 (val_main_v4 (F := Ideal) x1 x2) x3 := by
  funext i
  -- the operand indices the stages read at, written with coordinates
  have el : ∀ k : Fin 4096, lidx_main_v5 i k = ix2 (i 0) k := fun k => funext fun a => by
    match a with
    | ⟨0, _⟩ => rfl
    | ⟨1, _⟩ => rfl
  have er : ∀ k : Fin 4096, ridx_main_v5 i k = ix2 (i 1) k := fun k => funext fun a => by
    match a with
    | ⟨0, _⟩ => rfl
    | ⟨1, _⟩ => rfl
  have eb : idx_main_v6 (idx_main_v7 i) = ix1 (i 1) := funext fun a => by
    match a with
    | ⟨0, _⟩ => rfl
  rw [val_main_v8_apply, val_main_v5_apply, val_main_v7_apply, val_main_v6_apply, eb]
  simp only [el, er]
  rfl

end Cert.ReferenceIdeal.RefValue

end
-- ==== Proof.LibMatmulRows.lean ====
/-
  A matrix product of the rows of two matrices, read at an index.

  A `tpu.matmul` whose dimension numbers contract axis 1 of the left operand with axis 1 of the right one, with no
  batch axes — an [A, K] matrix against a [B, K] matrix, every row of the first against every row of the second, the
  product a kernel writes as "x · yᵀ" without forming the transpose — into the zero accumulator is, at the ideal values
  and at output position (p, q), the sum over k < K of left(p, k) · right(q, k): the contraction shape has the one axis
  of extent K, and the operand indices at output (p, q) and contraction position k are (p, k) and (q, k).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a product of rows with rows: rows × contraction against rows × contraction. -/
abbrev rows2 (wf : DotDims.WF ⟨2, ![A, K]⟩ ⟨2, ![B, K]⟩ ⟨2, ![A, B]⟩ [1] [1] [0] [0] [] []) :
    DotDims ⟨2, ![A, K]⟩ ⟨2, ![B, K]⟩ ⟨2, ![A, B]⟩ := ⟨[1], [1], [0], [0], [], [], wf⟩

/-- Its contraction shape has one axis, -/
theorem rows2_rank (wf : DotDims.WF ⟨2, ![A, K]⟩ ⟨2, ![B, K]⟩ ⟨2, ![A, B]⟩ [1] [1] [0] [0] [] []) :
    (rows2 wf).contr.rank = 1 := rfl

/-- of extent `K`. -/
theorem rows2_size (wf : DotDims.WF ⟨2, ![A, K]⟩ ⟨2, ![B, K]⟩ ⟨2, ![A, B]⟩ [1] [1] [0] [0] [] []) :
    (rows2 wf).contr.size ⟨0, by rw [rows2_rank]; exact Nat.one_pos⟩ = K := rfl

/-- The product into the zero accumulator at (p, q) is `∑ k, l (p, k) * r (q, k)`. -/
theorem matmulRows_zero_apply (wf : DotDims.WF ⟨2, ![A, K]⟩ ⟨2, ![B, K]⟩ ⟨2, ![A, B]⟩ [1] [1] [0] [0] [] [])
    (l : FVec Ideal ⟨2, ![A, K]⟩ φ₁) (r : FVec Ideal ⟨2, ![B, K]⟩ φ₂) (p : Fin A) (q : Fin B) :
    matmul (rows2 wf) none l r (constant ⟨2, ![A, B]⟩ .f32 0x00000000#32) (ix2 p q)
      = ∑ k : Fin K, l (ix2 p k) * r (ix2 q k) := by
  refine (Ideal.matmul_constant_zero_apply (rows2 wf) none l r (ix2 p q)).trans ?_
  refine (Equiv.sum_comp (contrEquiv1 (rows2 wf) K (rows2_rank wf) (rows2_size wf)).symm _).symm.trans ?_
  refine Finset.sum_congr rfl fun k _ => ?_
  have hk := contrEquiv1_symm_val (rows2 wf) K (rows2_rank wf) (rows2_size wf) k
  have hl : (rows2 wf).lhsIdx (ix2 p q) ((contrEquiv1 (rows2 wf) K (rows2_rank wf) (rows2_size wf)).symm k) = ix2 p k := by
    funext a; apply Fin.ext
    match a with
    | ⟨0, _⟩ => simp [DotDims.lhsIdx]; rfl
    | ⟨1, _⟩ => exact (DotDims.lhsIdx_val_of_single (rows2 wf) (cl := 1) rfl (ix2 p q) _).trans hk
  have hr : (rows2 wf).rhsIdx (ix2 p q) ((contrEquiv1 (rows2 wf) K (rows2_rank wf) (rows2_size wf)).symm k) = ix2 q k := by
    funext a; apply Fin.ext
    match a with
    | ⟨0, _⟩ => simp [DotDims.rhsIdx]; rfl
    | ⟨1, _⟩ => exact (DotDims.rhsIdx_val_of_single (rows2 wf) (cr := 1) rfl (ix2 p q) _).trans hk
  show l _ * r _ = _
  rw [hl, hr]

end Cert.Lib

end
-- ==== Proof.TileEntry.lean ====
/-
  One tile of the kernel, read at an entry.

  At a grid point the kernel body holds a [1024, 4096] block of activations, a [256, 4096] block of weights and a
  [1, 256] block of the bias row. It multiplies the first two along their second axes into a zero accumulator — entry
  (p, q) of the product is the sum over k of left(p, k) · right(q, k) — repeats the bias row down the 1024 rows, and adds.
  So entry (p, q) of what it stores is that sum plus the bias block at (0, q).
-/
import proofs.«156727_j68178310856945_2_alg».proof.Proof.Gen.KernelIdeal.Skeleton
import proofs.«156727_j68178310856945_2_alg».proof.Proof.LibMatmulRows
import proofs.«156727_j68178310856945_2_alg».proof.Proof.DequantLinear
import Idealize.ShloMosaic.Lib.Pipeline.Value
import Idealize.ShloMosaic.Lib.ValueLayout

noncomputable section

namespace Cert.KernelIdeal.Tile

open Cert.KernelIdeal Cert.KernelIdeal.Gen Idealize.ShloMosaic Idealize.ShloMosaic.ValueIdx

/-- The body's stored value at (p, q): row p of the activation block against row q of the weight block, plus the
    bias block's one row at q. -/
theorem pay_apply (x0 : FVec Ideal S1024x4096 .bf16) (x1 : FVec Ideal S256x4096 .bf16) (x2 : FVec Ideal S1x256 .f32)
    (p : Fin 1024) (q : Fin 256) :
    k0_pay1 (F := Ideal) x0 x1 x2 (ix2 p q)
      = (∑ k : Fin 4096, x0 (ix2 p k) * x1 (ix2 q k)) + x2 (ix2 (0 : Fin 1) q) := by
  unfold k0_pay1
  rw [shapeCast_self, shapeCast_self, shapeCast_self]
  refine (addf_apply _ _ (ix2 p q)).trans ?_
  rw [broadcastTo_1b_ab_apply]
  exact congrArg (· + x2 (ix2 (0 : Fin 1) q))
    (Cert.Lib.matmulRows_zero_apply Facts₀.dot_S1024x4096_S256x4096_S1024x256_1_1_0_0_n_n_wf x0 x1 p q)

/-- A tile's stored value at a block index is an entry of the whole layer, when the blocks are where that entry
    looks: row `y 0` of the activation block is row `P` of the activations, row `y 1` of the weight block is row `Q`
    of the weights, and the bias block at column `y 1` is the bias at `Q`. -/
theorem tile_eq (X : FVec Ideal ⟨2, ![8192, 4096]⟩ .f32) (Wt : FVec Ideal ⟨2, ![11008, 4096]⟩ .f32)
    (b : FVec Ideal ⟨1, ![11008]⟩ .f32)
    (x0 : FVec Ideal S1024x4096 .bf16) (x1 : FVec Ideal S256x4096 .bf16) (x2 : FVec Ideal S1x256 .f32)
    (y : S1024x256.Idx) (P : Fin 8192) (Q : Fin 11008)
    (h0 : ∀ k : Fin 4096, x0 (ix2 (y 0) k) = X (ix2 P k))
    (h1 : ∀ k : Fin 4096, x1 (ix2 (y 1) k) = Wt (ix2 Q k))
    (h2 : x2 (ix2 (0 : Fin 1) (y 1)) = b (ix1 Q)) :
    k0_pay1 (F := Ideal) x0 x1 x2 y = Cert.Linear.entry X Wt b P Q := by
  obtain ⟨p, q, rfl⟩ : ∃ (p : Fin 1024) (q : Fin 256), y = ix2 p q := ⟨y 0, y 1, eq_ix2 y⟩
  have h0' : ∀ k : Fin 4096, x0 (ix2 p k) = X (ix2 P k) := h0
  have h1' : ∀ k : Fin 4096, x1 (ix2 q k) = Wt (ix2 Q k) := h1
  have h2' : x2 (ix2 (0 : Fin 1) q) = b (ix1 Q) := h2
  rw [pay_apply, h2']
  unfold Cert.Linear.entry
  exact congrArg (· + b (ix1 Q)) (Finset.sum_congr rfl fun k _ => by rw [h0' k, h1' k])

end Cert.KernelIdeal.Tile

end
-- ==== Proof.EntryArrays.lean ====
/-
  What the kernel's region finds in the three arrays it stages.

  Before the region the program runs eight host operations. Three of their results are the region's inputs:
  the activations narrowed to bf16; the dequantized weights — the ternary weights regrouped as [11008, 32, 128], times
  the scales repeated along each group of 128, flattened back to [11008, 4096] — narrowed to bf16; and the bias vector
  laid as the one row [1, 11008]. At the ideal values a change of float format is the identity, so read at an index the
  first is the activation there, the second the dequantized weight there, and the third, at (0, q), the bias at q.
-/
import proofs.«156727_j68178310856945_2_alg».proof.Proof.Gen.KernelIdeal.Frame
import Idealize.ShloMosaic.Lib.StableHlo.Run
import Idealize.ShloMosaic.Lib.ValueIdx
import Idealize.ShloMosaic.Lib.ValueLayout

noncomputable section

namespace Cert.KernelIdeal.Entry

open Cert.KernelIdeal Cert.KernelIdeal.Gen Idealize.ShloMosaic Idealize.ShloMosaic.TcCoe Idealize.ShloMosaic.ValueIdx
open Idealize.SL.Sem Idealize.ShloMosaic.StableHlo

variable {F : FTy → Type} [FloatOps F]

/-- The dequantized weights, as the host operations form them: regroup, scale each group, flatten. -/
def weights (tw : (⟨S11008x4096, .f32⟩ : BufTy).Contents (Elt F)) (sc : (⟨S11008x32, .f32⟩ : BufTy).Contents (Elt F)) :
    (⟨S11008x4096, .f32⟩ : BufTy).Contents (Elt F) :=
  shapeCast _ (mulf (shapeCast _ tw shapeCasts_S11008x4096_S11008x32x128)
    (broadcastInDim S11008x32x128 ![0, 1, 2] bcast_S11008x32x1_S11008x32x128_0_1_2
      (broadcastInDim S11008x32x1 ![0, 1] bcast_S11008x32_S11008x32x1_0_1 sc))) shapeCasts_S11008x32x128_S11008x4096

variable (m : (ℓ : Loc nD τ sig) → Buf (Elt F) ℓ)

/-- The region finds the activations narrowed to bf16. -/
theorem V_activations (c : Dev nD) :
    V m c main_v6 = truncf .bf16 (m ((c : Thread nD τ).loc main_arg0)) bitsLt_bf16_f32 := by
  unfold V; after_results <;> rfl

/-- The region finds the dequantized weights narrowed to bf16. -/
theorem V_weights (c : Dev nD) :
    V m c main_v5 = truncf .bf16 (weights (m ((c : Thread nD τ).loc main_arg1)) (m ((c : Thread nD τ).loc main_arg2))) bitsLt_bf16_f32 := by
  unfold V; after_results <;> rfl

/-- The region finds the bias laid as one row. -/
theorem V_bias (c : Dev nD) :
    V m c main_v7 = shapeCast _ (m ((c : Thread nD τ).loc main_arg3)) shapeCasts_S11008_S1x11008 := by
  unfold V; after_results <;> rfl

end Cert.KernelIdeal.Entry

end
-- ==== Proof.BlocksToArray.lean ====
/-
  From tiles to the whole output array.

  The grid has 8 × 43 points; point t = 43·i + j works on rows [1024·i, 1024·i + 1024) of the activations, rows
  [256·j, 256·j + 256) of the weights and columns [256·j, 256·j + 256) of the bias row, and writes back the
  [1024, 256] block of the output at block position (i, j). Every block carries all 4096 contraction positions, so each
  output entry is computed whole inside one tile: entry (r, s) of the block at (i, j) is entry (1024·i + r, 256·j + s) of
  the linear layer of the launch arrays. The 344 output blocks tile the [8192, 11008] array — entry (R, S) lies in the
  block of point 43·(R / 1024) + S / 256 — so after the run the output array is the layer, everywhere.
-/
import proofs.«156727_j68178310856945_2_alg».proof.Proof.Gen.KernelIdeal.Value
import proofs.«156727_j68178310856945_2_alg».proof.Proof.DequantLinear
import proofs.«156727_j68178310856945_2_alg».proof.Proof.TileEntry
import proofs.«156727_j68178310856945_2_alg».proof.Proof.EntryArrays

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The linear layer of core `c`'s launch arrays: activations, dequantized weights, bias. -/
abbrev result (c : Dev nD) : FVec Ideal ⟨2, ![8192, 11008]⟩ .f32 :=
  Cert.Linear.layer (m ((c : Thread nD τ).loc main_arg0))
    (Entry.weights (m ((c : Thread nD τ).loc main_arg1)) (m ((c : Thread nD τ).loc main_arg2)))
    (m ((c : Thread nD τ).loc main_arg3))

theorem origin2 : (![0, 0] : Fin 2 → Nat) = fun _ => 0 := funext fun a => by fin_cases a <;> rfl

/-- The four windows' block positions at point `t`, in closed form: the grid runs its second axis fastest, so the row
    block is `t / 43` and the column block `t % 43`; the contraction axis is never split. -/
theorem block_positions : ∀ t : Fin cfg0.N,
    win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = 0 ∧ win0_2.index t (1 : Fin 2) = t.val % 43
    ∧ win0_3.index t (0 : Fin 2) = t.val / 43 ∧ win0_3.index t (1 : Fin 2) = t.val % 43 :=
  (by decide +kernel : ∀ t : Fin grid0.N, _)

/-- The activation block at point `t`, at `y`, is the launch activation at row `1024·(t / 43) + y 0`, column `y 1`. -/
theorem read_activations (c : Dev nD) (t : Fin cfg0.N) (y : S1024x4096.Idx) (i : S8192x4096.Idx)
    (h0 : (i 0).val = t.val / 43 * 1024 + (y 0).val) (h1 : (i 1).val = (y 1).val) :
    iblk m c 0 t y = m ((c : Thread nD τ).loc main_arg0) i := by
  obtain ⟨e0, e1, -⟩ := block_positions t
  show V m c main_v6 (((cfg0.win 0).blk t).view.emb y) = _
  rw [Entry.V_activations]
  show m ((c : Thread nD τ).loc main_arg0) (((cfg0.win 0).blk t).view.emb y) = _
  refine congrArg (m ((c : Thread nD τ).loc main_arg0)) (funext fun a => Fin.ext ?_)
  match a with
  | ⟨0, _⟩ => show win0_0.index t (0 : Fin 2) * 1024 + 1 * (y 0).val = (i 0).val; omega
  | ⟨1, _⟩ => show win0_0.index t (1 : Fin 2) * 4096 + 1 * (y 1).val = (i 1).val; omega

/-- The weight block at point `t`, at `y`, is the dequantized weight at row `256·(t % 43) + y 0`, column `y 1`. -/
theorem read_weights (c : Dev nD) (t : Fin cfg0.N) (y : S256x4096.Idx) (i : S11008x4096.Idx)
    (h0 : (i 0).val = t.val % 43 * 256 + (y 0).val) (h1 : (i 1).val = (y 1).val) :
    iblk m c 1 t y
      = Entry.weights (m ((c : Thread nD τ).loc main_arg1)) (m ((c : Thread nD τ).loc main_arg2)) i := by
  obtain ⟨-, -, e0, e1, -⟩ := block_positions t
  show V m c main_v5 (((cfg0.win 1).blk t).view.emb y) = _
  rw [Entry.V_weights]
  show Entry.weights (m ((c : Thread nD τ).loc main_arg1)) (m ((c : Thread nD τ).loc main_arg2))
    (((cfg0.win 1).blk t).view.emb y) = _
  refine congrArg (Entry.weights (m ((c : Thread nD τ).loc main_arg1)) (m ((c : Thread nD τ).loc main_arg2)))
    (funext fun a => Fin.ext ?_)
  match a with
  | ⟨0, _⟩ => show win0_1.index t (0 : Fin 2) * 256 + 1 * (y 0).val = (i 0).val; omega
  | ⟨1, _⟩ => show win0_1.index t (1 : Fin 2) * 4096 + 1 * (y 1).val = (i 1).val; omega

/-- The bias block at point `t`, at column `q` of its one row, is the launch bias at `256·(t % 43) + q`. -/
theorem read_bias (c : Dev nD) (t : Fin cfg0.N) (q : Fin 256) (Q : Fin 11008) (h : Q.val = t.val % 43 * 256 + q.val) :
    iblk m c 2 t (ix2 (0 : Fin 1) q) = m ((c : Thread nD τ).loc main_arg3) (ix1 Q) := by
  obtain ⟨-, -, -, -, e0, e1, -⟩ := block_positions t
  show V m c main_v7 (((cfg0.win 2).blk t).view.emb (ix2 (0 : Fin 1) q)) = _
  rw [Entry.V_bias]
  have e : ((cfg0.win 2).blk t).view.emb (ix2 (0 : Fin 1) q) = ix2 (0 : Fin 1) Q := funext fun a => Fin.ext (by
    match a with
    | ⟨0, _⟩ => show win0_2.index t (0 : Fin 2) * 1 + 1 * 0 = 0; omega
    | ⟨1, _⟩ => show win0_2.index t (1 : Fin 2) * 256 + 1 * q.val = Q.val; omega)
  rw [e]
  exact shapeCast_a_1a_apply (m ((c : Thread nD τ).loc main_arg3)) shapeCasts_S11008_S1x11008 (0 : Fin 1) Q

/-- What point `t` writes back is block `t` of the layer of the launch arrays. -/
theorem flushed_eq (c : Dev nD) (t : Fin cfg0.N) :
    (dats m 0 c).flushed 3 t = ((cfg0.win 3).blk t).view.read (Elt Ideal) (result m c) := by
  obtain ⟨-, -, -, -, -, -, e0, e1⟩ := block_positions t
  rw [Value.flushed3]
  unfold out0_3
  rw [View.canon_unit_zero origin2]
  simp only [View.ld_unit_zero (S := S1024x4096) origin2, View.ld_unit_zero (S := S256x4096) origin2,
    View.ld_unit_zero (S := S1x256) origin2]
  funext j
  have hj0 : (j 0).val < 1024 := (j 0).isLt
  have hj1 : (j 1).val < 256 := (j 1).isLt
  have E0 : ((((cfg0.win 3).blk t).view.emb j) 0).val = t.val / 43 * 1024 + (j 0).val := by
    show win0_3.index t (0 : Fin 2) * 1024 + 1 * (j 0).val = _; omega
  have E1 : ((((cfg0.win 3).blk t).view.emb j) 1).val = t.val % 43 * 256 + (j 1).val := by
    show win0_3.index t (1 : Fin 2) * 256 + 1 * (j 1).val = _; omega
  show k0_pay1 (F := Ideal) (iblk m c 0 t) (iblk m c 1 t) (iblk m c 2 t) j
    = Cert.Linear.entry (m ((c : Thread nD τ).loc main_arg0))
        (Entry.weights (m ((c : Thread nD τ).loc main_arg1)) (m ((c : Thread nD τ).loc main_arg2)))
        (m ((c : Thread nD τ).loc main_arg3))
        ((((cfg0.win 3).blk t).view.emb j) 0) ((((cfg0.win 3).blk t).view.emb j) 1)
  exact Tile.tile_eq (m ((c : Thread nD τ).loc main_arg0))
    (Entry.weights (m ((c : Thread nD τ).loc main_arg1)) (m ((c : Thread nD τ).loc main_arg2)))
    (m ((c : Thread nD τ).loc main_arg3))
    (iblk m c 0 t) (iblk m c 1 t) (iblk m c 2 t) j
    ((((cfg0.win 3).blk t).view.emb j) 0) ((((cfg0.win 3).blk t).view.emb j) 1)
    (fun k => read_activations m c t (ix2 (j 0) k) (ix2 ((((cfg0.win 3).blk t).view.emb j) 0) k) E0 rfl)
    (fun k => read_weights m c t (ix2 (j 1) k) (ix2 ((((cfg0.win 3).blk t).view.emb j) 1) k) E1 rfl)
    (read_bias m c t (j 1) ((((cfg0.win 3).blk t).view.emb j) 1) E1)

/-- An index of the output array is in point `t`'s block iff each coordinate is in the block's range on its axis. -/
theorem mem_block (t : Fin cfg0.N) (i : S8192x11008.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v8).slice (win0_3.rect t)).set ↔ _
  rw [View.set_slice_whole, Rect.mem_set_unit]
  exact Iff.rfl

/-- The blocks tile the output: entry (R, S) is in the block of point `43·(R / 1024) + S / 256`. -/
theorem covered (i : S8192x11008.Idx) :
    ∃ t : Fin cfg0.N, (cfg0.win 3).flush t = true ∧ i ∈ ((cfg0.win 3).blk t).view.set := by
  have hi0 : (i 0).val < 8192 := (i 0).isLt
  have hi1 : (i 1).val < 11008 := (i 1).isLt
  have hN : grid0.N = 344 := N_0
  have hlt : (i 0).val / 1024 * 43 + (i 1).val / 256 < grid0.N := by omega
  obtain ⟨t, ht⟩ : ∃ t : Fin cfg0.N, t.val = (i 0).val / 1024 * 43 + (i 1).val / 256 := ⟨⟨_, hlt⟩, rfl⟩
  obtain ⟨-, -, -, -, -, -, e0, e1⟩ := block_positions t
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 256 ≤ (i 1).val ∧ (i 1).val < win0_3.index t (1 : Fin 2) * 256 + 256
    omega

/-- After the run the output array is the layer of the launch arrays. -/
theorem final (c : Dev nD) : (dats m 0 c).arrAt 3 cfg0.N = result m c :=
  (dats m 0 c).arrAt_eq_of_cover 3 (result m c) (fun t _ => flushed_eq m c t) covered

/-- The kernel's run: the result array ends at the layer of the launch arrays, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.lean ====
/-
  A ternary linear layer: a tiled kernel against one whole matrix product.

  Both programs first form the same dequantized weights — the ternary weights regrouped as [11008, 32, 128], each
  group of 128 multiplied by its scale, flattened back to [11008, 4096] — by the same host operations. The reference
  then contracts the [8192, 4096] activations with those weights along each operand's second axis in one product and
  adds the bias repeated down the rows. The kernel narrows activations and weights to bf16 (at the ideal values a change
  of float format is the identity), cuts the output into 8 × 43 blocks of [1024, 256], and at each grid point multiplies a
  [1024, 4096] block of activations with a [256, 4096] block of weights into a zero accumulator and adds the matching
  [1, 256] piece of the bias row.

  Every block holds all 4096 contraction positions, so each output entry is computed whole inside one tile, as
      Σ_{k < 4096} x(p, k) · W(q, k) + b(q),
  which is what the reference's entry is as well. The two results are therefore the same function of the launch arrays on
  the extended reals, with no appeal to finiteness of the inputs: no sum is regrouped across tiles and nothing is
  distributed or cancelled.

  The three frames are the programs' runs with the results forgotten; the idealization rewrote no operation, so there is
  nothing to preserve beyond the program's own text.
-/
import proofs.«156727_j68178310856945_2_alg».proof.Defs
import proofs.«156727_j68178310856945_2_alg».proof.Proof.Gen.Kernel
import proofs.«156727_j68178310856945_2_alg».proof.Proof.Gen.Kernel.Skeleton
import proofs.«156727_j68178310856945_2_alg».proof.Proof.Gen.Kernel.Launch
import proofs.«156727_j68178310856945_2_alg».proof.Proof.Gen.Kernel.Points
import proofs.«156727_j68178310856945_2_alg».proof.Proof.Gen.Kernel.Frame
import proofs.«156727_j68178310856945_2_alg».proof.Proof.Gen.KernelIdeal
import proofs.«156727_j68178310856945_2_alg».proof.Proof.Gen.KernelIdeal.Skeleton
import proofs.«156727_j68178310856945_2_alg».proof.Proof.Gen.KernelIdeal.Launch
import proofs.«156727_j68178310856945_2_alg».proof.Proof.Gen.KernelIdeal.Points
import proofs.«156727_j68178310856945_2_alg».proof.Proof.Gen.KernelIdeal.Frame
import proofs.«156727_j68178310856945_2_alg».proof.Proof.Gen.ReferenceIdeal
import proofs.«156727_j68178310856945_2_alg».proof.Proof.Gen.KernelIdeal.Value
import proofs.«156727_j68178310856945_2_alg».proof.Proof.Gen.ReferenceIdeal.Run
import proofs.«156727_j68178310856945_2_alg».proof.Proof.Gen.ReferenceIdeal.Read
import proofs.«156727_j68178310856945_2_alg».proof.Proof.Gen.Pre_finite_inputs
import proofs.«156727_j68178310856945_2_alg».proof.Proof.DequantLinear
import proofs.«156727_j68178310856945_2_alg».proof.Proof.ReferenceLinear
import proofs.«156727_j68178310856945_2_alg».proof.Proof.BlocksToArray
import Idealize.ShloMosaic.Adequacy
import Idealize.ShloMosaic.Init

noncomputable section

namespace Cert.Proof

open Idealize.ShloMosaic Idealize.ShloMosaic.TcCoe Idealize.SL.Sem

/-- The two programs' dequantized weights are one function of the ternary weights and the scales: the same three
    layout operations around the same product, spelt in each program's own names. -/
theorem weights_eq (tw : (⟨Cert.ReferenceIdeal.S11008x4096, .f32⟩ : BufTy).Contents (Elt Ideal))
    (sc : (⟨Cert.ReferenceIdeal.S11008x32, .f32⟩ : BufTy).Contents (Elt Ideal)) :
    Cert.ReferenceIdeal.Read.val_main_v4 (F := Ideal) tw sc = Cert.KernelIdeal.Entry.weights (F := Ideal) tw sc := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments, the kernel's result array ends at the linear layer of the launch
    arrays (tile by tile, the tiles covering the array), and the reference's at its one product plus the bias, which read
    at an index is the same layer over the same dequantized weights. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact ((Cert.ReferenceIdeal.Read.val_main_v8_eq (F := Ideal) _ _ _ _).trans
    (Cert.ReferenceIdeal.RefValue.result_eq _ _ _ _)).trans
    (congrArg (fun W => Cert.Linear.layer _ W _) (weights_eq _ _))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
